-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64x1 : Shape := ⟨2, ![64, 1]⟩
abbrev S1 : Shape := ⟨1, ![1]⟩
abbrev S1000000x64 : Shape := ⟨2, ![1000000, 64]⟩
abbrev S2x2000000 : Shape := ⟨2, ![2, 2000000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000x64 : S_.BroadcastsInDim S1000000x64 (![] : Fin 0 → Fin S1000000x64.rank)
  reducesTo_S1000000x64_S_d0_1 : S1000000x64.ReducesTo [0, 1] S_

variable [Facts]

def fn_part1 {F : FTy → Type} [FloatOps F] (main_arg4 : FVec F S1 .f32) (main_arg5 : FVec F S1000000x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1000000x64 .f32 := Host.absf main_arg5
  let main_cst_8 : FVec F S_ .f32 := constant S_ .f32 0x7F800000#32
  let main_v25 : FVec F S1000000x64 .f32 := broadcastInDim S1000000x64 ![] bcast_S_S1000000x64 main_cst_8
  let main_v26 : IVec S1000000x64 1 := cmpf .olt main_v24 main_v25
  let main_c_9 : IVec S_ 1 := constantI S_ 1 1#1
  let main_v27 : IVec S_ 1 := (fun x v => Host.reduce IntOp.andi x v reducesTo_S1000000x64_S_d0_1 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S64x64 .f32) (main_arg3 : FVec F S64x1 .f32) (main_arg4 : FVec F S1 .f32) (main_arg5 : FVec F S1000000x64 .f32) (main_arg6 : IVec S2x2000000 32) (main_arg7 : IVec S16384 32) (main_arg8 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64x1 : Shape := ⟨2, ![64, 1]⟩
abbrev S1 : Shape := ⟨1, ![1]⟩
abbrev S1000000x64 : Shape := ⟨2, ![1000000, 64]⟩
abbrev S2x2000000 : Shape := ⟨2, ![2, 2000000]⟩
abbrev S16384 : Shape := ⟨1, ![16384]⟩
abbrev S1x2000000 : Shape := ⟨2, ![1, 2000000]⟩
abbrev S2000000 : Shape := ⟨1, ![2000000]⟩
abbrev S1x1 : Shape := ⟨2, ![1, 1]⟩
abbrev S1000000x1 : Shape := ⟨2, ![1000000, 1]⟩
abbrev S8000x64 : Shape := ⟨2, ![8000, 64]⟩
abbrev S8000x1 : Shape := ⟨2, ![8000, 1]⟩
abbrev S1000000 : Shape := ⟨1, ![1000000]⟩
abbrev S_ : Shape := ⟨0, ![]⟩
abbrev S150000 : Shape := ⟨1, ![150000]⟩
abbrev S2000000x1 : Shape := ⟨2, ![2000000, 1]⟩
abbrev S150000x64 : Shape := ⟨2, ![150000, 64]⟩
abbrev S2000000x64 : Shape := ⟨2, ![2000000, 64]⟩
abbrev S16384x1 : Shape := ⟨2, ![16384, 1]⟩
abbrev S16384x64 : Shape := ⟨2, ![16384, 64]⟩
abbrev S4096x64 : Shape := ⟨2, ![4096, 64]⟩
abbrev S4096 : Shape := ⟨1, ![4096]⟩

abbrev nBuf : Space → Nat
  | .hbm => 137
  | .vmem => 13
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64x1, .f32⟩
  | 4 => ⟨S1, .f32⟩
  | 5 => ⟨S1000000x64, .f32⟩
  | 6 => ⟨S2x2000000, .i32⟩
  | 7 => ⟨S16384, .i32⟩
  | 8 => ⟨S16384, .i32⟩
  | 9 => ⟨S1x2000000, .i32⟩
  | 10 => ⟨S2000000, .i32⟩
  | 11 => ⟨S1x2000000, .i32⟩
  | 12 => ⟨S2000000, .i32⟩
  | 13 => ⟨S1x1, .f32⟩
  | 14 => ⟨S1000000x1, .f32⟩
  | 15 => ⟨S1000000, .f32⟩
  | 16 => ⟨S2000000, .f32⟩
  | 17 => ⟨S_, .f32⟩
  | 18 => ⟨S2000000, .f32⟩
  | 19 => ⟨S_, .f32⟩
  | 20 => ⟨S150000, .f32⟩
  | 21 => ⟨S2000000x1, .i32⟩
  | 22 => ⟨S150000, .f32⟩
  | 23 => ⟨S_, .f32⟩
  | 24 => ⟨S150000, .f32⟩
  | 25 => ⟨S150000, .i1⟩
  | 26 => ⟨S_, .f32⟩
  | 27 => ⟨S150000, .f32⟩
  | 28 => ⟨S150000, .f32⟩
  | 29 => ⟨S150000, .f32⟩
  | 30 => ⟨S_, .f32⟩
  | 31 => ⟨S_, .f32⟩
  | 32 => ⟨S150000, .f32⟩
  | 33 => ⟨S150000, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000, .f32⟩
  | 52 => ⟨S2000000, .f32⟩
  | 53 => ⟨S2000000, .f32⟩
  | 54 => ⟨S2000000x1, .f32⟩
  | 55 => ⟨S150000x64, .f32⟩
  | 56 => ⟨S_, .f32⟩
  | 57 => ⟨S150000x64, .f32⟩
  | 58 => ⟨S150000x64, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S2000000x64, .f32⟩
  | 69 => ⟨S2000000x64, .f32⟩
  | 70 => ⟨S_, .f32⟩
  | 71 => ⟨S150000x64, .f32⟩
  | 72 => ⟨S2000000x1, .i32⟩
  | 73 => ⟨S150000x64, .f32⟩
  | 74 => ⟨S_, .f32⟩
  | 75 => ⟨S150000x64, .f32⟩
  | 76 => ⟨S150000x64, .f32⟩
  | 77 => ⟨S150000x64, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S2000000x64, .f32⟩
  | 88 => ⟨S2000000x64, .f32⟩
  | 89 => ⟨S_, .f32⟩
  | 90 => ⟨S150000x64, .f32⟩
  | 91 => ⟨S2000000x1, .i32⟩
  | 92 => ⟨S150000x64, .f32⟩
  | 93 => ⟨S_, .f32⟩
  | 94 => ⟨S150000x64, .f32⟩
  | 95 => ⟨S150000x64, .f32⟩
  | 96 => ⟨S150000x64, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000x64, .f32⟩
  | 106 => ⟨S2000000x64, .f32⟩
  | 107 => ⟨S2000000x64, .f32⟩
  | 108 => ⟨S_, .f32⟩
  | 109 => ⟨S150000x64, .f32⟩
  | 110 => ⟨S2000000x1, .i32⟩
  | 111 => ⟨S150000x64, .f32⟩
  | 112 => ⟨S_, .f32⟩
  | 113 => ⟨S150000x64, .f32⟩
  | 114 => ⟨S150000x64, .f32⟩
  | 115 => ⟨S150000x64, .f32⟩
  | 116 => ⟨S100000x64, .f32⟩
  | 117 => ⟨S50000x64, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x64, .f32⟩
  | 127 => ⟨S_, .i32⟩
  | _ => ⟨S100000x64, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x64, .f32⟩
  | 8 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S64x1, .f32⟩
  | .local _ .vmem, ⟨4, _⟩ => ⟨S1x1, .f32⟩
  | .local _ .vmem, ⟨5, _⟩ => ⟨S8000x1, .f32⟩
  | .local _ .vmem, ⟨6, _⟩ => ⟨S8000x1, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S4096x64, .f32⟩
  | .local _ .vmem, ⟨11, _⟩ => ⟨S4096, .f32⟩
  | .local _ .vmem, ⟨12, _⟩ => ⟨S4096, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_20 : Ref sig .tc := ⟨.hbm, 118, rfl⟩
abbrev main_v85 : Ref sig .tc := ⟨.hbm, 119, rfl⟩
abbrev main_v86 : Ref sig .tc := ⟨.hbm, 120, rfl⟩
abbrev main_c_21 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_22 : Ref sig .tc := ⟨.hbm, 127, rfl⟩
abbrev main_v92 : Ref sig .tc := ⟨.hbm, 128, rfl⟩
abbrev main_v93 : Ref sig .tc := ⟨.hbm, 129, rfl⟩
abbrev main_c_23 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S_S150000x64 : S_.BroadcastsInDim S150000x64 (![] : Fin 0 → Fin S150000x64.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x1.size a ≤ S1000000x1.size a
  hwx0_4 : ∀ i : grid0.Coords, EltTy.bits .f32 = 32 ∨ (Rect.block (s := S1000000x1) S8000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S16384x64.size a
  hwx1_0 : ∀ i : grid1.Coords, EltTy.bits .f32 = 32 ∨ (Rect.block (s := S16384x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S16384x64.size a
  hwx1_1 : ∀ i : grid1.Coords, EltTy.bits .f32 = 32 ∨ (Rect.block (s := S16384x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S16384.size a
  hwx1_2 : ∀ i : grid1.Coords, EltTy.bits .f32 = 32 ∨ (Rect.block (s := S16384) S4096.size (cc1_transform_2 i) (hinb1_2 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_arg5) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v91) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64x1 : Shape := ⟨2, ![64, 1]⟩
abbrev S1 : Shape := ⟨1, ![1]⟩
abbrev S1000000x64 : Shape := ⟨2, ![1000000, 64]⟩
abbrev S2x2000000 : Shape := ⟨2, ![2, 2000000]⟩
abbrev S16384 : Shape := ⟨1, ![16384]⟩
abbrev S1x2000000 : Shape := ⟨2, ![1, 2000000]⟩
abbrev S2000000 : Shape := ⟨1, ![2000000]⟩
abbrev S1000000x1 : Shape := ⟨2, ![1000000, 1]⟩
abbrev S1x1 : Shape := ⟨2, ![1, 1]⟩
abbrev S2000000x1 : Shape := ⟨2, ![2000000, 1]⟩
abbrev S_ : Shape := ⟨0, ![]⟩
abbrev S150000 : Shape := ⟨1, ![150000]⟩
abbrev S150000x64 : Shape := ⟨2, ![150000, 64]⟩
abbrev S2000000x64 : Shape := ⟨2, ![2000000, 64]⟩
abbrev S16384x1 : Shape := ⟨2, ![16384, 1]⟩
abbrev S16384x64 : Shape := ⟨2, ![16384, 64]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64x1, .f32⟩
  | 4 => ⟨S1, .f32⟩
  | 5 => ⟨S1000000x64, .f32⟩
  | 6 => ⟨S2x2000000, .i32⟩
  | 7 => ⟨S16384, .i32⟩
  | 8 => ⟨S16384, .i32⟩
  | 9 => ⟨S1x2000000, .i32⟩
  | 10 => ⟨S2000000, .i32⟩
  | 11 => ⟨S1x2000000, .i32⟩
  | 12 => ⟨S2000000, .i32⟩
  | 13 => ⟨S1000000x64, .f32⟩
  | 14 => ⟨S1000000x1, .f32⟩
  | 15 => ⟨S1x1, .f32⟩
  | 16 => ⟨S1000000x1, .f32⟩
  | 17 => ⟨S1000000x1, .f32⟩
  | 18 => ⟨S2000000x1, .f32⟩
  | 19 => ⟨S2000000, .f32⟩
  | 20 => ⟨S_, .f32⟩
  | 21 => ⟨S2000000, .f32⟩
  | 22 => ⟨S_, .f32⟩
  | 23 => ⟨S150000, .f32⟩
  | 24 => ⟨S2000000x1, .i32⟩
  | 25 => ⟨S150000, .f32⟩
  | 26 => ⟨S_, .f32⟩
  | 27 => ⟨S150000, .f32⟩
  | 28 => ⟨S150000, .i1⟩
  | 29 => ⟨S_, .f32⟩
  | 30 => ⟨S150000, .f32⟩
  | 31 => ⟨S150000, .f32⟩
  | 32 => ⟨S150000, .f32⟩
  | 33 => ⟨S_, .f32⟩
  | 34 => ⟨S_, .f32⟩
  | 35 => ⟨S150000, .f32⟩
  | 36 => ⟨S150000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000, .f32⟩
  | 55 => ⟨S2000000, .f32⟩
  | 56 => ⟨S2000000, .f32⟩
  | 57 => ⟨S2000000x1, .f32⟩
  | 58 => ⟨S150000x64, .f32⟩
  | 59 => ⟨S_, .f32⟩
  | 60 => ⟨S150000x64, .f32⟩
  | 61 => ⟨S150000x64, .f32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000x64, .f32⟩
  | 71 => ⟨S2000000x64, .f32⟩
  | 72 => ⟨S2000000x64, .f32⟩
  | 73 => ⟨S_, .f32⟩
  | 74 => ⟨S150000x64, .f32⟩
  | 75 => ⟨S2000000x1, .i32⟩
  | 76 => ⟨S150000x64, .f32⟩
  | 77 => ⟨S_, .f32⟩
  | 78 => ⟨S150000x64, .f32⟩
  | 79 => ⟨S150000x64, .f32⟩
  | 80 => ⟨S150000x64, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S2000000x64, .f32⟩
  | 90 => ⟨S2000000x64, .f32⟩
  | 91 => ⟨S2000000x64, .f32⟩
  | 92 => ⟨S_, .f32⟩
  | 93 => ⟨S150000x64, .f32⟩
  | 94 => ⟨S2000000x1, .i32⟩
  | 95 => ⟨S150000x64, .f32⟩
  | 96 => ⟨S_, .f32⟩
  | 97 => ⟨S150000x64, .f32⟩
  | 98 => ⟨S150000x64, .f32⟩
  | 99 => ⟨S150000x64, .f32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S2000000x64, .f32⟩
  | 109 => ⟨S2000000x64, .f32⟩
  | 110 => ⟨S2000000x64, .f32⟩
  | 111 => ⟨S_, .f32⟩
  | 112 => ⟨S150000x64, .f32⟩
  | 113 => ⟨S2000000x1, .i32⟩
  | 114 => ⟨S150000x64, .f32⟩
  | 115 => ⟨S_, .f32⟩
  | 116 => ⟨S150000x64, .f32⟩
  | 117 => ⟨S150000x64, .f32⟩
  | 118 => ⟨S150000x64, .f32⟩
  | 119 => ⟨S100000x64, .f32⟩
  | 120 => ⟨S50000x64, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S100000x64, .f32⟩

abbrev hbmTy0_1 (i : Nat) : BufTy := match i % 128 with
  | 0 => ⟨S16384x1, .i32⟩
  | 1 => ⟨S16384x64, .f32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384x64, .f32⟩
  | 11 => ⟨S16384x64, .f32⟩
  | 12 => ⟨S_, .f32⟩
  | 13 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_20 : Ref sig .tc := ⟨.hbm, 121, rfl⟩
abbrev main_v88 : Ref sig .tc := ⟨.hbm, 122, rfl⟩
abbrev main_v89 : Ref sig .tc := ⟨.hbm, 123, rfl⟩
abbrev main_c_21 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_22 : Ref sig .tc := ⟨.hbm, 130, rfl⟩
abbrev main_v95 : Ref sig .tc := ⟨.hbm, 131, rfl⟩
abbrev main_v96 : Ref sig .tc := ⟨.hbm, 132, rfl⟩
abbrev main_c_23 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_24 : Ref sig .tc := ⟨.hbm, 140, rfl⟩
abbrev main_v103 : Ref sig .tc := ⟨.hbm, 141, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  concatenates_S1000000x1_S1000000x1_S2000000x1_d0 : Shape.Concatenates [S1000000x1, S1000000x1] S2000000x1 0
  shapeCasts_S2000000x1_S2000000 : S2000000x1.ShapeCasts S2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  concatenates_S100000x64_S50000x64_S150000x64_d0 : Shape.Concatenates [S100000x64, S50000x64] S150000x64 0
  bcast_S_S150000x64 : S_.BroadcastsInDim S150000x64 (![] : Fin 0 → Fin S150000x64.rank)
  bcast_S2000000x1_S2000000x64_0_1 : S2000000x1.BroadcastsInDim S2000000x64 (![0, 1] : Fin 2 → Fin S2000000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.RefSide.lean ====
import proofs.«138866_j64604898066610_2_alg».proof.Proof.RefRead
import Idealize.ShloMosaic.Lib.Pipeline.Value
import Idealize.ShloMosaic.Lib.ValueIdx
import Idealize.ShloMosaic.PureOps.Ideal.Laws

/-!
  The reference, read where it differs from the kernel.

  * Its result is, entry by entry, the sum over the 64 columns of the product of the gathered user row and the
    gathered item row (the host's row sum starts from the zero word).
  * Its edge weights, before they are doubled, are row by row
    (sum over j of (sum over k of features(e, k) · F(k, j)) · w(j)) + bias.
  * Doubling and flattening commute: two copies of the flattened column laid end to end are the flattened
    doubled column.
-/

set_option maxRecDepth 16384

noncomputable section

namespace Cert.ReferenceIdeal.RefSide

open Cert.ReferenceIdeal Cert.ReferenceIdeal.Gen Cert.ReferenceIdeal.Read
open Idealize.ShloMosaic Idealize.ShloMosaic.ValueIdx Idealize.ShloMosaic.TcCoe

/-- A vector of one million entries. -/
abbrev SMillion : Shape := ⟨1, ![1000000]⟩

/-- The weight of edge row `e`: the feature row times `F`, the result times the weight column, plus the bias. -/
def ewRows (ef : S1000000x64.Idx → EReal) (Fm : S64x64.Idx → EReal) (pw : S64x1.Idx → EReal) (pb : S1x1.Idx → EReal) :
    S1000000x1.Idx → EReal :=
  fun i => (∑ j : Fin 64, (∑ k : Fin 64, ef (ix2 (i 0) k) * Fm (ix2 k j)) * pw (ix2 j (i 1))) + pb (ix2 0 0)

/-- The reference's result: the row sums of the product of the gathered user rows and the gathered item rows. -/
theorem result_rows (x0 : (⟨S100000x64, .f32⟩ : BufTy).Contents (Elt Ideal)) (x1 : (⟨S50000x64, .f32⟩ : BufTy).Contents (Elt Ideal))
    (x2 : (⟨S64x64, .f32⟩ : BufTy).Contents (Elt Ideal)) (x3 : (⟨S64x1, .f32⟩ : BufTy).Contents (Elt Ideal))
    (x4 : (⟨S1, .f32⟩ : BufTy).Contents (Elt Ideal)) (x5 : (⟨S1000000x64, .f32⟩ : BufTy).Contents (Elt Ideal))
    (x6 : (⟨S2x2000000, .i32⟩ : BufTy).Contents (Elt Ideal)) (x7 x8 : (⟨S16384, .i32⟩ : BufTy).Contents (Elt Ideal)) :
    val_main_v103 (F := Ideal) x0 x1 x2 x3 x4 x5 x6 x7 x8
      = fun i : S16384.Idx => ∑ k : Fin 64, val_main_v94 (F := Ideal) x0 x1 x2 x3 x4 x5 x6 x7 (ix2 (i 0) k)
          * val_main_v101 (F := Ideal) x0 x1 x2 x3 x4 x5 x6 x8 (ix2 (i 0) k) := by
  funext i
  rw [val_main_v103_apply, val_main_cst_24_apply, Ideal.ofBits_def, Ideal.ofBits_zero_f32, zero_add]
  refine Finset.sum_congr rfl fun k _ => ?_
  rw [val_main_v102_apply, Ideal.mulf_def]
  have e : idx_main_v103 i k = ix2 (i 0) k :=
    funext fun a => Fin.ext (by match a with | ⟨0, _⟩ => rfl | ⟨1, _⟩ => rfl)
  rw [e]
  rfl

/-- The reference's edge weights before doubling, row by row. -/
theorem ew_rows (x2 : (⟨S64x64, .f32⟩ : BufTy).Contents (Elt Ideal)) (x3 : (⟨S64x1, .f32⟩ : BufTy).Contents (Elt Ideal))
    (x4 : (⟨S1, .f32⟩ : BufTy).Contents (Elt Ideal)) (x5 : (⟨S1000000x64, .f32⟩ : BufTy).Contents (Elt Ideal))
    (hb : S1.ShapeCasts S1x1) :
    val_main_v8 (F := Ideal) x2 x3 x4 x5 = ewRows x5 x2 x3 (shapeCast S1x1 x4 hb) := by
  funext i
  rw [val_main_v8_apply, val_main_v5_apply, val_main_v7_apply, val_main_v6_apply, Ideal.addf_def]
  unfold ewRows
  refine congrArg₂ (· + ·) (Finset.sum_congr rfl fun j _ => ?_) ?_
  · rw [val_main_v4_apply]
    refine congrArg₂ (· * ·) (Finset.sum_congr rfl fun k _ => ?_) ?_
    · refine congrArg₂ (· * ·) (congrArg x5 ?_) (congrArg x2 ?_)
      · exact funext fun a => Fin.ext (by match a with | ⟨0, _⟩ => rfl | ⟨1, _⟩ => rfl)
      · exact funext fun a => Fin.ext (by match a with | ⟨0, _⟩ => rfl | ⟨1, _⟩ => rfl)
    · exact congrArg x3 (funext fun a => Fin.ext (by match a with | ⟨0, _⟩ => rfl | ⟨1, _⟩ => rfl))
  · show x4 _ = x4 _
    refine congrArg x4 (funext fun a => Fin.ext ?_)
    match a with
    | ⟨0, _⟩ =>
      have h1 : ((Shape.reshapeEquiv hb (ix2 (0 : Fin 1) (0 : Fin 1))) (⟨0, Nat.one_pos⟩ : Fin 1)).val < 1 :=
        ((Shape.reshapeEquiv hb (ix2 (0 : Fin 1) (0 : Fin 1))) (⟨0, Nat.one_pos⟩ : Fin 1)).isLt
      show 0 = _
      omega

/-- Two copies of a flattened column laid end to end are the flattened doubled column. -/
theorem doubled_flat (f : S1000000x1.Idx → EReal)
    (hr : S1000000x1.ShapeCasts SMillion) (hc : Shape.Concatenates [SMillion, SMillion] S2000000 0)
    (hc' : Shape.Concatenates [S1000000x1, S1000000x1] S2000000x1 0) (hr' : S2000000x1.ShapeCasts S2000000) :
    concatenate S2000000 0 [⟨SMillion, shapeCast SMillion f hr⟩, ⟨SMillion, shapeCast SMillion f hr⟩] hc
      = shapeCast S2000000 (concatenate S2000000x1 0 [⟨S1000000x1, f⟩, ⟨S1000000x1, f⟩] hc') hr' := by
  funext i
  have hi : (i 0).val < 2000000 := (i 0).isLt
  -- the flattened doubled column at `i` is the doubled column at (i, 0)
  have R : shapeCast S2000000 (concatenate S2000000x1 0 [⟨S1000000x1, f⟩, ⟨S1000000x1, f⟩] hc') hr' i
      = concatenate S2000000x1 0 [⟨S1000000x1, f⟩, ⟨S1000000x1, f⟩] hc' (ix2 (⟨(i 0).val, hi⟩ : Fin 2000000) (0 : Fin 1)) :=
    shapeCast_apply _ hr' i _ (by
      rw [Shape.rowMajor_val_two, Shape.rowMajor_val_one]
      show (i 0).val * 1 + 0 = (i 0).val
      omega)
  rw [R]
  by_cases hlt : (i 0).val < 1000000
  · -- the first copy
    have L : concatenate S2000000 0 [⟨SMillion, shapeCast SMillion f hr⟩, ⟨SMillion, shapeCast SMillion f hr⟩] hc i
        = shapeCast SMillion f hr (ix1 (⟨(i 0).val, hlt⟩ : Fin 1000000)) :=
      concatenate_pair_apply_left (s₁ := SMillion) (s₂ := SMillion) (0 : Fin 1) (shapeCast SMillion f hr) (shapeCast SMillion f hr) hc i rfl
        (ix1 (⟨(i 0).val, hlt⟩ : Fin 1000000))
        (fun b => by match b with | ⟨0, _⟩ => rfl)
    have L2 : shapeCast SMillion f hr (ix1 (⟨(i 0).val, hlt⟩ : Fin 1000000)) = f (ix2 (⟨(i 0).val, hlt⟩ : Fin 1000000) (0 : Fin 1)) :=
      shapeCast_apply f hr _ _ (by
        rw [Shape.rowMajor_val_two, Shape.rowMajor_val_one]
        show (i 0).val * 1 + 0 = (i 0).val
        omega)
    have R2 : concatenate S2000000x1 0 [⟨S1000000x1, f⟩, ⟨S1000000x1, f⟩] hc' (ix2 (⟨(i 0).val, hi⟩ : Fin 2000000) (0 : Fin 1))
        = f (ix2 (⟨(i 0).val, hlt⟩ : Fin 1000000) (0 : Fin 1)) :=
      concatenate_pair_apply_left (s₁ := S1000000x1) (s₂ := S1000000x1) (0 : Fin 2) f f hc' (ix2 (⟨(i 0).val, hi⟩ : Fin 2000000) (0 : Fin 1)) rfl
        (ix2 (⟨(i 0).val, hlt⟩ : Fin 1000000) (0 : Fin 1)) (fun b => by match b with | ⟨0, _⟩ => rfl | ⟨1, _⟩ => rfl)
    rw [L, L2, R2]
  · -- the second copy
    have hlt' : (i 0).val - 1000000 < 1000000 := by omega
    have L : concatenate S2000000 0 [⟨SMillion, shapeCast SMillion f hr⟩, ⟨SMillion, shapeCast SMillion f hr⟩] hc i
        = shapeCast SMillion f hr (ix1 (⟨(i 0).val - 1000000, hlt'⟩ : Fin 1000000)) :=
      concatenate_pair_apply_right (s₁ := SMillion) (s₂ := SMillion) (0 : Fin 1) (shapeCast SMillion f hr) (shapeCast SMillion f hr) hc i rfl rfl
        (ix1 (⟨(i 0).val - 1000000, hlt'⟩ : Fin 1000000))
        (fun b hb => absurd (Fin.ext (by have hb1 : b.val < 1 := b.isLt; show b.val = 0; omega)) hb)
        (by show (i 0).val - 1000000 + 1000000 = (i 0).val; omega)
    have L2 : shapeCast SMillion f hr (ix1 (⟨(i 0).val - 1000000, hlt'⟩ : Fin 1000000))
        = f (ix2 (⟨(i 0).val - 1000000, hlt'⟩ : Fin 1000000) (0 : Fin 1)) :=
      shapeCast_apply f hr _ _ (by
        rw [Shape.rowMajor_val_two, Shape.rowMajor_val_one]
        show ((i 0).val - 1000000) * 1 + 0 = (i 0).val - 1000000
        omega)
    have R2 : concatenate S2000000x1 0 [⟨S1000000x1, f⟩, ⟨S1000000x1, f⟩] hc' (ix2 (⟨(i 0).val, hi⟩ : Fin 2000000) (0 : Fin 1))
        = f (ix2 (⟨(i 0).val - 1000000, hlt'⟩ : Fin 1000000) (0 : Fin 1)) :=
      concatenate_pair_apply_right (s₁ := S1000000x1) (s₂ := S1000000x1) (0 : Fin 2) f f hc' (ix2 (⟨(i 0).val, hi⟩ : Fin 2000000) (0 : Fin 1)) rfl rfl
        (ix2 (⟨(i 0).val - 1000000, hlt'⟩ : Fin 1000000) (0 : Fin 1))
        (fun b hb => by
          have hb2 : b.val < 2 := b.isLt
          have hne : b.val ≠ 0 := fun h0 => hb (Fin.ext (by show b.val = 0; exact h0))
          have h1 : b = (1 : Fin 2) := Fin.ext (by show b.val = 1; omega)
          subst h1
          rfl)
        (by show (i 0).val - 1000000 + 1000000 = (i 0).val; omega)
    rw [L, L2, R2]

/-- The kernel's doubled edge-weight vector — the edge-weight column flattened, two copies end to end — is the
    reference's, when the column is the reference's row formula. -/
theorem ew_doubled (x2 : (⟨S64x64, .f32⟩ : BufTy).Contents (Elt Ideal)) (x3 : (⟨S64x1, .f32⟩ : BufTy).Contents (Elt Ideal))
    (x4 : (⟨S1, .f32⟩ : BufTy).Contents (Elt Ideal)) (x5 : (⟨S1000000x64, .f32⟩ : BufTy).Contents (Elt Ideal))
    (hb : S1.ShapeCasts S1x1) (hr : S1000000x1.ShapeCasts SMillion) (hc : Shape.Concatenates [SMillion, SMillion] S2000000 0) :
    concatenate S2000000 0 [⟨SMillion, shapeCast SMillion (ewRows x5 x2 x3 (shapeCast S1x1 x4 hb)) hr⟩,
        ⟨SMillion, shapeCast SMillion (ewRows x5 x2 x3 (shapeCast S1x1 x4 hb)) hr⟩] hc
      = val_main_v10 (F := Ideal) x2 x3 x4 x5 := by
  rw [doubled_flat _ hr hc concatenates_S1000000x1_S1000000x1_S2000000x1_d0 shapeCasts_S2000000x1_S2000000,
    ← ew_rows x2 x3 x4 x5 hb]
  rfl

end Cert.ReferenceIdeal.RefSide

end
-- ==== Proof.KernelRun.lean ====
import proofs.«138866_j64604898066610_2_alg».proof.Proof.Gen.KernelIdeal.Frame

/-!
  The idealized kernel program's run, with its result named.

  The program is two pipelined regions among stretches of host operations. Every weakly fair execution
  terminates without a fault; at the end each argument array is as launched, and the result array holds what the
  second region's write-backs leave in it: the fold of the blocks its four grid points flush, over the buffer
  contents the region was entered with (themselves the fold of every host operation before it over what the first
  region left).  The segments, the regions' proof data and the thread states are the generated frame's; only the
  final state is read at one more buffer, the result's.
-/

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting;
    the result array ends at the second region's flushed blocks folded over its entry contents, and every argument
    array ends as launched. -/
theorem run_result : θ_run defs (onTc (τ := τ) (main (F := F))) ⟨m, fun _ => 0, ρ⟩ (fun r => ∀ c : Dev nD,
      r.2.mem ((c.tc : Thread nD τ).loc main_v99) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v99 (by decide))).trans (W6_arr m ρ c 2),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KernelRun

end
-- ==== Proof.LibCalledOps.lean ====
/-
  An operation of a called (module-local) function, at LITERAL buffers, is the plain operation at those buffers.

  A called function's operations are written over references that carry the tensor type, and move the operation's
  function to the buffers' own types along an equation between the two types. When the buffers are given, the
  carried type is the buffer's own and that equation is reflexivity, so the transports are identities and the
  operation is the plain one. The statements below say so for an operation of each arity, with the operation's
  FUNCTION A VARIABLE: instantiating one at a function whose definition is a fold over a large array (a window sum
  over a million entries, a scatter) then never opens that definition, where comparing the two spellings of the
  operation directly may walk into it.

  Use: `(binary_of ra rb ry (by decide) rfl (by decide) rfl (by decide) rfl _ : TRef.binary (.of ra) (.of rb) (.of ry) f = binary ra rb ry f)`,
  then rewrite the called operations of an operation list with such equations and read the list with the usual lemmas.
-/
import Idealize.ShloMosaic.Lib.StableHlo

namespace Idealize.ShloMosaic.StableHlo.TRef

variable {τ : Topo} {sig : RefSig} {Val : EltTy → Type}

/-- A called function's constant at a literal buffer is the plain constant. -/
theorem nullary_of (ry : Ref sig .tc) (hy1 : ry.space ≠ .host) (hy2 : ry.isScoped = false) (v : ry.ty.Contents Val) :
    (TRef.nullary (TRef.of ry rfl hy1 hy2) v : HloOp τ sig Val) = StableHlo.nullary ry v ⟨hy1, hy2⟩ := rfl

/-- A called function's one-operand operation at literal buffers is the plain operation. -/
theorem unary_of (rx ry : Ref sig .tc) (hx1 : rx.space ≠ .host) (hx2 : rx.isScoped = false)
    (hy1 : ry.space ≠ .host) (hy2 : ry.isScoped = false) (f : rx.ty.Contents Val → ry.ty.Contents Val) :
    (TRef.unary (TRef.of rx rfl hx1 hx2) (TRef.of ry rfl hy1 hy2) f : HloOp τ sig Val)
      = StableHlo.unary rx ry f ⟨hx1, hx2⟩ ⟨hy1, hy2⟩ := rfl

/-- A called function's two-operand operation at literal buffers is the plain operation. -/
theorem binary_of (ra rb ry : Ref sig .tc)
    (ha1 : ra.space ≠ .host) (ha2 : ra.isScoped = false) (hb1 : rb.space ≠ .host) (hb2 : rb.isScoped = false)
    (hy1 : ry.space ≠ .host) (hy2 : ry.isScoped = false)
    (f : ra.ty.Contents Val → rb.ty.Contents Val → ry.ty.Contents Val) :
    (TRef.binary (TRef.of ra rfl ha1 ha2) (TRef.of rb rfl hb1 hb2) (TRef.of ry rfl hy1 hy2) f : HloOp τ sig Val)
      = StableHlo.binary ra rb ry f ⟨ha1, ha2⟩ ⟨hb1, hb2⟩ ⟨hy1, hy2⟩ := rfl

/-- A called function's three-operand operation at literal buffers is the plain operation. -/
theorem ternary_of (rc ra rb ry : Ref sig .tc)
    (hc1 : rc.space ≠ .host) (hc2 : rc.isScoped = false) (ha1 : ra.space ≠ .host) (ha2 : ra.isScoped = false)
    (hb1 : rb.space ≠ .host) (hb2 : rb.isScoped = false) (hy1 : ry.space ≠ .host) (hy2 : ry.isScoped = false)
    (f : rc.ty.Contents Val → ra.ty.Contents Val → rb.ty.Contents Val → ry.ty.Contents Val) :
    (TRef.ternary (TRef.of rc rfl hc1 hc2) (TRef.of ra rfl ha1 ha2) (TRef.of rb rfl hb1 hb2) (TRef.of ry rfl hy1 hy2) f : HloOp τ sig Val)
      = StableHlo.ternary rc ra rb ry f ⟨hc1, hc2⟩ ⟨ha1, ha2⟩ ⟨hb1, hb2⟩ ⟨hy1, hy2⟩ := rfl

end Idealize.ShloMosaic.StableHlo.TRef
-- ==== Proof.HostChain.lean ====
import proofs.«138866_j64604898066610_2_alg».proof.Proof.Gen.KernelIdeal.Frame
import proofs.«138866_j64604898066610_2_alg».proof.Proof.RefRead
import proofs.«138866_j64604898066610_2_alg».proof.Proof.LibCalledOps
import Idealize.ShloMosaic.Lib.StableHlo.Run

/-!
  The host operations between the two regions, read back.

  After the first region the program reshapes the edge weights to a vector, lays two copies end to end (one per
  direction of an edge), and from there applies, operation for operation, what the reference applies to its own
  doubled edge-weight vector: the degree count by a scatter-add of ones, the inverse square roots (with zero where
  the degree is zero), the edge coefficients, three rounds of gather, scale and scatter-add with the weighted
  running sum, the split into user and item rows, and the two row gathers of the scored pairs.  So the two arrays
  the second region is entered with are the reference's gathered user rows and gathered item rows — as functions of
  the argument arrays — as soon as the doubled edge-weight vector is the reference's.  The scatters, gathers and the
  rest are never opened: both sides apply the same operations to the same operands.
-/

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

/-- Two pieces laid end to end depend only on the pieces (so a rewrite may enter them). -/
@[congr] theorem concatenate_pair_congr {α : Type} {t s₁ s₂ : Shape} {a : Fin t.rank} {x₁ x₁' : s₁.Idx → α} {x₂ x₂' : s₂.Idx → α}
    {h : Shape.Concatenates [s₁, s₂] t a} (h₁ : x₁ = x₁') (h₂ : x₂ = x₂') :
    concatenate t a [⟨s₁, x₁⟩, ⟨s₂, x₂⟩] h = concatenate t a [⟨s₁, x₁'⟩, ⟨s₂, x₂'⟩] h := by
  subst h₁ h₂; rfl

/-- The three operations of the called select-with-default (zero where the degree is zero, the inverse square root
    elsewhere), at their buffers, are the plain operations. -/
theorem where_ops {F : FTy → Type} [FloatOps F] : (hostOps1_1 : List (HloOp τ sig (Elt F))) =
    [ StableHlo.unary main_cst_3 main_call0_v0 id,
      StableHlo.unary main_call0_v0 main_call0_v1 (broadcastInDim S150000 ![] bcast_S_S150000),
      StableHlo.ternary main_v13 main_v16 main_call0_v1 main_v17 select ] :=
  congrArg₂ List.cons
    (TRef.unary_of (τ := τ) (Val := Elt F) main_cst_3 main_call0_v0 (by decide) rfl (by decide) rfl id)
    (congrArg₂ List.cons
      (TRef.unary_of (τ := τ) (Val := Elt F) main_call0_v0 main_call0_v1 (by decide) rfl (by decide) rfl
        (broadcastInDim S150000 ![] bcast_S_S150000))
      (congrArg₂ List.cons
        (TRef.ternary_of (τ := τ) (Val := Elt F) main_v13 main_v16 main_call0_v1 main_v17 (by decide) rfl (by decide) rfl
          (by decide) rfl (by decide) rfl select)
        rfl))

set_option maxHeartbeats 40000000 in
/-- From any buffer contents `Vin` holding the argument arrays, the two rows of the edge list and, at the first
    region's output, edge weights whose doubled vector is the reference's: after the host operations up to the second
    region, the gathered user rows are the reference's. -/
theorem user_rows (Vin : Valuation τ sig (Elt Ideal))
    (a0 : (⟨S100000x64, .f32⟩ : BufTy).Contents (Elt Ideal)) (a1 : (⟨S50000x64, .f32⟩ : BufTy).Contents (Elt Ideal))
    (a2 : (⟨S64x64, .f32⟩ : BufTy).Contents (Elt Ideal)) (a3 : (⟨S64x1, .f32⟩ : BufTy).Contents (Elt Ideal))
    (a4 : (⟨S1, .f32⟩ : BufTy).Contents (Elt Ideal)) (a5 : (⟨S1000000x64, .f32⟩ : BufTy).Contents (Elt Ideal))
    (a6 : (⟨S2x2000000, .i32⟩ : BufTy).Contents (Elt Ideal)) (a7 : (⟨S16384, .i32⟩ : BufTy).Contents (Elt Ideal))
    (h0 : Vin (Proc.devRef .tc main_arg0) = a0) (h1 : Vin (Proc.devRef .tc main_arg1) = a1)
    (hp : Vin (Proc.devRef .tc main_arg7) = a7)
    (hs : Vin (Proc.devRef .tc main_v1) = Cert.ReferenceIdeal.Read.val_main_v1 (F := Ideal) a6)
    (hd : Vin (Proc.devRef .tc main_v3) = Cert.ReferenceIdeal.Read.val_main_v3 (F := Ideal) a6)
    (hw : concatenate S2000000 0 [⟨S1000000, shapeCast S1000000 (Vin (Proc.devRef .tc main_v5)) shapeCasts_S1000000x1_S1000000⟩,
          ⟨S1000000, shapeCast S1000000 (Vin (Proc.devRef .tc main_v5)) shapeCasts_S1000000x1_S1000000⟩] concatenates_S1000000_S1000000_S2000000_d0
        = Cert.ReferenceIdeal.Read.val_main_v10 (F := Ideal) a2 a3 a4 a5) :
    StableHlo.after hostOps1_2 (StableHlo.after hostOps1_1 (StableHlo.after hostOps1 Vin)) (Proc.devRef .tc main_v91)
      = Cert.ReferenceIdeal.Read.val_main_v94 (F := Ideal) a0 a1 a2 a3 a4 a5 a6 a7 := by
  rw [where_ops]
  after_results_simp
  rw [h0, h1, hp, hs, hd]
  -- the reference's stages that depend on the edge weights, opened down to the doubled edge-weight vector
  simp only [Cert.ReferenceIdeal.Read.val_main_v94,
    Cert.ReferenceIdeal.Read.val_main_v86,
    Cert.ReferenceIdeal.Read.val_main_v85,
    Cert.ReferenceIdeal.Read.val_main_v84,
    Cert.ReferenceIdeal.Read.val_main_v82,
    Cert.ReferenceIdeal.Read.val_main_v79,
    Cert.ReferenceIdeal.Read.val_main_v78,
    Cert.ReferenceIdeal.Read.val_main_v77,
    Cert.ReferenceIdeal.Read.val_main_v70,
    Cert.ReferenceIdeal.Read.val_main_v69,
    Cert.ReferenceIdeal.Read.val_main_v67,
    Cert.ReferenceIdeal.Read.val_main_v64,
    Cert.ReferenceIdeal.Read.val_main_v63,
    Cert.ReferenceIdeal.Read.val_main_v62,
    Cert.ReferenceIdeal.Read.val_main_v55,
    Cert.ReferenceIdeal.Read.val_main_v54,
    Cert.ReferenceIdeal.Read.val_main_v52,
    Cert.ReferenceIdeal.Read.val_main_v49,
    Cert.ReferenceIdeal.Read.val_main_v48,
    Cert.ReferenceIdeal.Read.val_main_v37,
    Cert.ReferenceIdeal.Read.val_main_v36]
  rw [← hw]
  rfl

set_option maxHeartbeats 40000000 in
/-- The same for the gathered item rows. -/
theorem item_rows (Vin : Valuation τ sig (Elt Ideal))
    (a0 : (⟨S100000x64, .f32⟩ : BufTy).Contents (Elt Ideal)) (a1 : (⟨S50000x64, .f32⟩ : BufTy).Contents (Elt Ideal))
    (a2 : (⟨S64x64, .f32⟩ : BufTy).Contents (Elt Ideal)) (a3 : (⟨S64x1, .f32⟩ : BufTy).Contents (Elt Ideal))
    (a4 : (⟨S1, .f32⟩ : BufTy).Contents (Elt Ideal)) (a5 : (⟨S1000000x64, .f32⟩ : BufTy).Contents (Elt Ideal))
    (a6 : (⟨S2x2000000, .i32⟩ : BufTy).Contents (Elt Ideal)) (a8 : (⟨S16384, .i32⟩ : BufTy).Contents (Elt Ideal))
    (h0 : Vin (Proc.devRef .tc main_arg0) = a0) (h1 : Vin (Proc.devRef .tc main_arg1) = a1)
    (hp : Vin (Proc.devRef .tc main_arg8) = a8)
    (hs : Vin (Proc.devRef .tc main_v1) = Cert.ReferenceIdeal.Read.val_main_v1 (F := Ideal) a6)
    (hd : Vin (Proc.devRef .tc main_v3) = Cert.ReferenceIdeal.Read.val_main_v3 (F := Ideal) a6)
    (hw : concatenate S2000000 0 [⟨S1000000, shapeCast S1000000 (Vin (Proc.devRef .tc main_v5)) shapeCasts_S1000000x1_S1000000⟩,
          ⟨S1000000, shapeCast S1000000 (Vin (Proc.devRef .tc main_v5)) shapeCasts_S1000000x1_S1000000⟩] concatenates_S1000000_S1000000_S2000000_d0
        = Cert.ReferenceIdeal.Read.val_main_v10 (F := Ideal) a2 a3 a4 a5) :
    StableHlo.after hostOps1_2 (StableHlo.after hostOps1_1 (StableHlo.after hostOps1 Vin)) (Proc.devRef .tc main_v98)
      = Cert.ReferenceIdeal.Read.val_main_v101 (F := Ideal) a0 a1 a2 a3 a4 a5 a6 a8 := by
  rw [where_ops]
  after_results_simp
  rw [h0, h1, hp, hs, hd]
  -- the reference's stages that depend on the edge weights, opened down to the doubled edge-weight vector
  simp only [Cert.ReferenceIdeal.Read.val_main_v101,
    Cert.ReferenceIdeal.Read.val_main_v87,
    Cert.ReferenceIdeal.Read.val_main_v85,
    Cert.ReferenceIdeal.Read.val_main_v84,
    Cert.ReferenceIdeal.Read.val_main_v82,
    Cert.ReferenceIdeal.Read.val_main_v79,
    Cert.ReferenceIdeal.Read.val_main_v78,
    Cert.ReferenceIdeal.Read.val_main_v77,
    Cert.ReferenceIdeal.Read.val_main_v70,
    Cert.ReferenceIdeal.Read.val_main_v69,
    Cert.ReferenceIdeal.Read.val_main_v67,
    Cert.ReferenceIdeal.Read.val_main_v64,
    Cert.ReferenceIdeal.Read.val_main_v63,
    Cert.ReferenceIdeal.Read.val_main_v62,
    Cert.ReferenceIdeal.Read.val_main_v55,
    Cert.ReferenceIdeal.Read.val_main_v54,
    Cert.ReferenceIdeal.Read.val_main_v52,
    Cert.ReferenceIdeal.Read.val_main_v49,
    Cert.ReferenceIdeal.Read.val_main_v48,
    Cert.ReferenceIdeal.Read.val_main_v37,
    Cert.ReferenceIdeal.Read.val_main_v36]
  rw [← hw]
  rfl

end Cert.KernelIdeal.HostChain

end
-- ==== Proof.ScoreRows.lean ====
import proofs.«138866_j64604898066610_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  The score kernel's output array, read as one function of its two input arrays.

  The region runs over four grid points. At point t the body loads rows 4096·t … 4096·t + 4095 of the gathered user
  rows and of the gathered item rows (two 4096 × 64 blocks), multiplies them entry by entry, sums each row over its
  64 lanes, and stores the 4096 sums as entries 4096·t … 4096·t + 4095 of the score array. Read at the extended
  reals, entry b of the score array after the region is therefore the inner product of user row b and item row b.

  Order of the argument: the stored value at a row of a block; the relations between the three block index maps over
  the grid; each input block as rows of its array; what a point writes back as a block of the score function; the
  four blocks cover the score array; the array after the region.
-/
set_option maxRecDepth 16384

noncomputable section

namespace Cert.KernelIdeal.ScoreRows

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The score of pair b: the inner product of its user row and its item row. -/
def scoreSpec (gu gi : S16384x64.Idx → EReal) : S16384.Idx → EReal :=
  fun i => ∑ k : Fin 64, gu (ix2 (i 0) k) * gi (ix2 (i 0) k)

/-! ## The stored value at a row of a block -/

/-- A lane sum of a 4096 × 64 block at row r: the sum over the 64 lanes of the block's entries (r, k). -/
theorem lane_sum_row (src : FVec Ideal S4096x64 .f32) (h : S4096x64.Reduces [1] S4096) (hφ : FKind.Formats .f32)
    (hacc : (0x00000000#32 : BitVec 32) = FKind.add.neutral .f32 hφ) (r : Fin 4096) :
    multiReduction (F := Ideal) .add [1] S4096 src 0x00000000#32 h hφ hacc (ix1 r) = ∑ k : Fin 64, src (ix2 r k) := by
  refine (Ideal.multiReduction_add_single src 0x00000000#32 h hφ hacc (ix1 r)).trans ?_
  refine Finset.sum_congr rfl fun k _ => congrArg src ?_
  funext a; apply Fin.ext
  match a with
  | ⟨0, _⟩ => rfl
  | ⟨1, _⟩ => rfl

/-- The stored value at row r of a block: the inner product of row r of the two loaded blocks (the two casts are to
    the blocks' own shape, the product is entry by entry, the sum runs over the lanes). -/
theorem block_score_row (x0 x1 : Vec Ideal S4096x64 .f32) (r : Fin 4096) :
    k1_pay1 (F := Ideal) x0 x1 (ix1 r) = ∑ k : Fin 64, x0 (ix2 r k) * x1 (ix2 r k) := by
  unfold k1_pay1
  refine (lane_sum_row _ _ _ _ r).trans ?_
  refine Finset.sum_congr rfl fun k _ => ?_
  rw [shapeCast_self, shapeCast_self]
  rfl

/-- The same at any index of the one-dimensional block. -/
theorem block_score_at (x0 x1 : Vec Ideal S4096x64 .f32) (y : S4096.Idx) :
    k1_pay1 (F := Ideal) x0 x1 y = ∑ k : Fin 64, x0 (ix2 (y 0) k) * x1 (ix2 (y 0) k) := by
  obtain ⟨r, rfl⟩ : ∃ r : Fin 4096, y = ix1 r := ⟨y 0, eq_ix1 y⟩
  exact block_score_row x0 x1 r

/-! ## The block index maps over the grid -/

/-- Over the four grid points: both inputs' row block moves with the output's block, whose index is the point's
    number; the inputs' lane block is always the first. -/
theorem block_index_facts : ∀ t : Fin cfg1.N, win1_0.index t (0 : Fin 2) = win1_2.index t (0 : Fin 1)
    ∧ win1_1.index t (0 : Fin 2) = win1_2.index t (0 : Fin 1)
    ∧ win1_0.index t (1 : Fin 2) = 0 ∧ win1_1.index t (1 : Fin 2) = 0
    ∧ win1_2.index t (0 : Fin 1) = t.val ∧ win1_2.index t (0 : Fin 1) ≤ 3 :=
  (by decide +kernel : ∀ t : Fin grid1.N, _)

/-- The zero offsets of a whole one-dimensional block, … -/
theorem origin1 : (![0] : Fin 1 → Nat) = fun _ => 0 := funext fun a => by fin_cases a; rfl
/-- … and of a whole two-dimensional block. -/
theorem origin2 : (![0, 0] : Fin 2 → Nat) = fun _ => 0 := funext fun a => by fin_cases a <;> rfl

variable (V : (c : Dev nD) → (b : Ref sig .tc) → Buf (Elt Ideal) ((c : Thread nD τ).loc b))

/-! ## Each input block as rows of its array -/

/-- The user block at point t is rows 4096·t … 4096·t + 4095 of the gathered user rows: entry x of the block is the
    array's entry at row (block index) · 4096 + x's row and at x's lane. -/
theorem read_users (c : Dev nD) (t : Fin cfg1.N) (x : S4096x64.Idx) (i : S16384x64.Idx)
    (h0 : (i 0).val = win1_2.index t (0 : Fin 1) * 4096 + (x 0).val) (h1 : (i 1).val = (x 1).val) :
    (iblk1 (F := Ideal) V c 0 t : Vec Ideal S4096x64 .f32) x = (V c main_v91 : S16384x64.Idx → EReal) i := by
  obtain ⟨e0, e1, e2, e3, e4, e5⟩ := block_index_facts t
  unfold iblk1
  rw [View.read_apply]
  show V c main_v91 _ = V c main_v91 _
  refine congrArg _ ?_
  funext a; apply Fin.ext
  match a with
  | ⟨0, _⟩ => show win1_0.index t (0 : Fin 2) * 4096 + 1 * (x 0).val = (i 0).val; omega
  | ⟨1, _⟩ => show win1_0.index t (1 : Fin 2) * 64 + 1 * (x 1).val = (i 1).val; omega

/-- The item block at point t is the same rows of the gathered item rows. -/
theorem read_items (c : Dev nD) (t : Fin cfg1.N) (x : S4096x64.Idx) (i : S16384x64.Idx)
    (h0 : (i 0).val = win1_2.index t (0 : Fin 1) * 4096 + (x 0).val) (h1 : (i 1).val = (x 1).val) :
    (iblk1 (F := Ideal) V c 1 t : Vec Ideal S4096x64 .f32) x = (V c main_v98 : S16384x64.Idx → EReal) i := by
  obtain ⟨e0, e1, e2, e3, e4, e5⟩ := block_index_facts t
  unfold iblk1
  rw [View.read_apply]
  show V c main_v98 _ = V c main_v98 _
  refine congrArg _ ?_
  funext a; apply Fin.ext
  match a with
  | ⟨0, _⟩ => show win1_1.index t (0 : Fin 2) * 4096 + 1 * (x 0).val = (i 0).val; omega
  | ⟨1, _⟩ => show win1_1.index t (1 : Fin 2) * 64 + 1 * (x 1).val = (i 1).val; omega

/-! ## What a point writes back -/

/-- What point t writes back is block t of the scores of the gathered rows: entry y of the block is the inner product
    of row y of the two input blocks, which are rows 4096·t + y of the two arrays, and the block's entry y sits at
    entry 4096·t + y of the score array. -/
theorem written_back (c : Dev nD) (t : Fin cfg1.N) :
    (dat1 (F := Ideal) V c).flushed 2 t
      = ((cfg1.win 2).blk t).view.read (Elt Ideal) (scoreSpec (V c main_v91) (V c main_v98)) := by
  show (cfg1.win 2).cut (grid1.coords t) ((dat1 V c).after 2 t) = _
  rw [after1_2]
  unfold out1_2
  rw [View.canon_unit_zero origin1]
  simp only [View.ld_unit_zero (S := S4096x64) origin2]
  funext y
  show k1_pay1 (F := Ideal) (iblk1 V c 0 t) (iblk1 V c 1 t) y
      = scoreSpec (V c main_v91) (V c main_v98) (((cfg1.win 2).blk t).view.emb y)
  refine (block_score_at _ _ y).trans ?_
  unfold scoreSpec
  refine Finset.sum_congr rfl fun k _ => ?_
  have hy : ((((cfg1.win 2).blk t).view.emb y) 0).val = win1_2.index t (0 : Fin 1) * 4096 + (y 0).val := by
    show win1_2.index t (0 : Fin 1) * 4096 + 1 * (y 0).val = _; omega
  rw [read_users V c t (ix2 (y 0) k) (ix2 ((((cfg1.win 2).blk t).view.emb y) 0) k) hy rfl,
    read_items V c t (ix2 (y 0) k) (ix2 ((((cfg1.win 2).blk t).view.emb y) 0) k) hy rfl]

/-! ## The four blocks cover the score array -/

/-- An entry of the score array is in point t's block iff it lies in the block's range of 4096 entries. -/
theorem mem_score_block (t : Fin cfg1.N) (i : S16384.Idx) :
    i ∈ ((cfg1.win 2).blk t).view.set ↔ ∀ a : Fin 1, win1_2.index t a * S4096.size a ≤ (i a).val ∧ (i a).val < win1_2.index t a * S4096.size a + S4096.size a := by
  show i ∈ ((View.whole main_v99).slice (win1_2.rect t)).set ↔ _
  rw [View.set_slice_whole, Rect.mem_set_unit]
  exact Iff.rfl

/-- Every entry of the score array is written: entry r by point r / 4096, and every point writes back. -/
theorem score_blocks_cover (i : S16384.Idx) :
    ∃ t : Fin cfg1.N, (cfg1.win 2).flush t = true ∧ i ∈ ((cfg1.win 2).blk t).view.set := by
  have hi : (i 0).val < 16384 := (i 0).isLt
  obtain ⟨t, ht⟩ : ∃ t : Fin cfg1.N, t.val = (i 0).val / 4096 :=
    ⟨⟨(i 0).val / 4096, by rw [show cfg1.N = 4 from N_1]; omega⟩, rfl⟩
  obtain ⟨e0, e1, e2, e3, e4, e5⟩ := block_index_facts t
  refine ⟨t, flush1_2 t, ?_⟩
  rw [mem_score_block]
  intro a
  match a with
  | ⟨0, _⟩ =>
    show win1_2.index t (0 : Fin 1) * 4096 ≤ (i 0).val ∧ (i 0).val < win1_2.index t (0 : Fin 1) * 4096 + 4096
    omega

/-! ## The array after the region -/

/-- The score array after the region: entry b is the inner product of gathered user row b and gathered item row b. -/
theorem score_array (c : Dev nD) :
    (dat1 (F := Ideal) V c).arrAt 2 cfg1.N = scoreSpec (V c main_v91) (V c main_v98) :=
  (dat1 (F := Ideal) V c).arrAt_eq_of_cover 2 (scoreSpec (V c main_v91) (V c main_v98))
    (fun t _ => written_back V c t) score_blocks_cover

end Cert.KernelIdeal.ScoreRows

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.EdgeWeight.lean ====
/-
  The edge-weight region, read as one function of its arrays.

  The region walks the 1000000 rows of the edge-feature array in 125 blocks of 8000 rows. At each block it
  multiplies the 8000×64 block of features by the 64×64 matrix, multiplies the result by the 64×1 weight
  column, adds the single bias entry to every row, and writes the 8000×1 result back as the matching block of
  the 1000000×1 result array. At the ideal values a change of float format is the identity and a product into
  the zero accumulator is the row-by-column sum, so entry (e, 0) of the result is

      ∑ j < 64, (∑ k < 64, features (e, k) · matrix (k, j)) · column (j, 0)  +  bias (0, 0).

  The steps: one entry of the stored block as that double sum of the block's operands (`pay_apply`); where each
  window's block sits in its array, from the index maps decided over the 125 points (`idx_facts`, `rows_read`,
  `square_read`, `column_read`, `bias_read`); what one point writes back (`flushed_eq`); the blocks written
  back cover every row (`mem_blk`, `cover`); hence the whole array (`ew_array`).
-/
import proofs.«138866_j64604898066610_2_alg».proof.Proof.Gen.KernelIdeal.Frame
import proofs.«138866_j64604898066610_2_alg».proof.Proof.LibDotRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeWeight

open Cert.KernelIdeal Cert.KernelIdeal.Gen
open Idealize.ShloMosaic Idealize.ShloMosaic.ValueIdx Idealize.ShloMosaic.TcCoe Idealize.SL.Sem
open Idealize.ShloMosaic.Pipeline (Dat)

/-- The weight of edge row e: the feature row times F, the result times the weight column, plus the bias. -/
def ewSpec (ef : S1000000x64.Idx → EReal) (Fm : S64x64.Idx → EReal) (pw : S64x1.Idx → EReal) (pb : S1x1.Idx → EReal) :
    S1000000x1.Idx → EReal :=
  fun i => (∑ j : Fin 64, (∑ k : Fin 64, ef (ix2 (i 0) k) * Fm (ix2 k j)) * pw (ix2 j (i 1))) + pb (ix2 0 0)

/-- The zero offsets of a whole-buffer rectangle, as a constant function. -/
theorem hz : (![0, 0] : Fin 2 → Nat) = fun _ => 0 := funext fun a => by fin_cases a <;> rfl

/-- One entry of what the body stores: row r of the feature block times the square matrix, the resulting
    row times the weight column, plus the single bias entry. The two format changes are the identity on
    the extended reals, each product into the zero accumulator is a row-by-column sum, and the bias is
    cast to its own shape and then broadcast down the column. -/
theorem pay_apply (x0 : Vec Ideal S8000x64 .f32) (x1 : Vec Ideal S64x64 .f32) (x2 : Vec Ideal S64x1 .f32)
    (x3 : Vec Ideal S1x1 .f32) (r : Fin 8000) (q : Fin 1) :
    k0_pay1 x0 x1 x2 x3 (ix2 r q)
      = (∑ j : Fin 64, (∑ k : Fin 64, x0 (ix2 r k) * x1 (ix2 k j)) * x2 (ix2 j q)) + x3 (ix2 0 0) := by
  unfold k0_pay1
  rw [addf_apply, DotRows.matmul_zero_ix2 _ rfl rfl rfl rfl rfl rfl, shapeCast_self, broadcastTo_1b_ab_apply]
  obtain rfl : q = 0 := Subsingleton.elim _ _
  congr 1
  refine Finset.sum_congr rfl fun j _ => ?_
  rw [truncf_apply, truncf_apply, DotRows.matmul_zero_ix2 _ rfl rfl rfl rfl rfl rfl]
  simp only [truncf_apply]

/-- The printed index maps, decided over the grid's 125 points: the feature window moves down the rows with
    the output window and stays in column block 0; the three whole-array windows stay at block (0, 0); the
    output window's row block at point t is t itself. -/
theorem idx_facts : ∀ t : Fin cfg0.N,
    win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0
    ∧ win0_4.index t (0 : Fin 2) = t.val :=
  (by decide +kernel : ∀ t : Fin grid0.N, _)

section Blocks
variable (V : (c : Dev nD) → (b : Ref sig .tc) → Buf (Elt Ideal) ((c : Thread nD τ).loc b))

/-- The feature window's block at point t is rows 8000·t … 8000·t + 7999 of the feature array: entry x of the
    block is the array's entry i whenever i's row is the block's first row plus x's and the columns agree. -/
theorem rows_read (c : Dev nD) (t : Fin cfg0.N) (x : S8000x64.Idx) (i : S1000000x64.Idx)
    (h0 : (i 0).val = win0_0.index t (0 : Fin 2) * 8000 + (x 0).val)
    (h1 : (i 1).val = win0_0.index t (1 : Fin 2) * 64 + (x 1).val) :
    (iblk0 V c 0 t : Vec Ideal S8000x64 .f32) x = (V c main_arg5 : S1000000x64.Idx → EReal) i := by
  unfold iblk0
  rw [View.read_apply]
  show V c main_arg5 _ = V c main_arg5 _
  congr 1
  funext a
  apply Fin.ext
  match a with
  | ⟨0, _⟩ => show win0_0.index t (0 : Fin 2) * 8000 + 1 * (x 0).val = (i 0).val; omega
  | ⟨1, _⟩ => show win0_0.index t (1 : Fin 2) * 64 + 1 * (x 1).val = (i 1).val; omega

/-- The square matrix's window is the whole array at every point. -/
theorem square_read (c : Dev nD) (t : Fin cfg0.N) :
    (iblk0 V c 1 t : Vec Ideal S64x64 .f32) = (V c main_arg2 : S64x64.Idx → EReal) := by
  obtain ⟨-, -, e0, e1, -⟩ := idx_facts t
  funext x
  unfold iblk0
  rw [View.read_apply]
  show V c main_arg2 _ = V c main_arg2 _
  congr 1
  funext a
  apply Fin.ext
  match a with
  | ⟨0, _⟩ => show win0_1.index t (0 : Fin 2) * 64 + 1 * (x 0).val = (x 0).val; omega
  | ⟨1, _⟩ => show win0_1.index t (1 : Fin 2) * 64 + 1 * (x 1).val = (x 1).val; omega

/-- The weight column's window is the whole array at every point. -/
theorem column_read (c : Dev nD) (t : Fin cfg0.N) :
    (iblk0 V c 2 t : Vec Ideal S64x1 .f32) = (V c main_arg3 : S64x1.Idx → EReal) := by
  obtain ⟨-, -, -, -, e0, e1, -⟩ := idx_facts t
  funext x
  unfold iblk0
  rw [View.read_apply]
  show V c main_arg3 _ = V c main_arg3 _
  congr 1
  funext a
  apply Fin.ext
  match a with
  | ⟨0, _⟩ => show win0_2.index t (0 : Fin 2) * 64 + 1 * (x 0).val = (x 0).val; omega
  | ⟨1, _⟩ => show win0_2.index t (1 : Fin 2) * 1 + 1 * (x 1).val = (x 1).val; omega

/-- The bias's window is the whole one-entry array at every point. -/
theorem bias_read (c : Dev nD) (t : Fin cfg0.N) :
    (iblk0 V c 3 t : Vec Ideal S1x1 .f32) = (V c main_v4 : S1x1.Idx → EReal) := by
  obtain ⟨-, -, -, -, -, -, e0, e1, -⟩ := idx_facts t
  funext x
  unfold iblk0
  rw [View.read_apply]
  show V c main_v4 _ = V c main_v4 _
  congr 1
  funext a
  apply Fin.ext
  match a with
  | ⟨0, _⟩ => show win0_3.index t (0 : Fin 2) * 1 + 1 * (x 0).val = (x 0).val; omega
  | ⟨1, _⟩ => show win0_3.index t (1 : Fin 2) * 1 + 1 * (x 1).val = (x 1).val; omega

end Blocks

section Flush
variable (V : (c : Dev nD) → (b : Ref sig .tc) → Buf (Elt Ideal) ((c : Thread nD τ).loc b))

/-- What point t writes back is block t of the edge-weight function of the arrays as the region finds them:
    entry y of the stored block is the payload at y, whose feature rows are the array's rows under the output
    block's rows, and whose other three operands are the whole arrays. -/
theorem flushed_eq (c : Dev nD) (t : Fin cfg0.N) :
    (dat0 (F := Ideal) V c).flushed 4 t
      = ((cfg0.win 4).blk t).view.read (Elt Ideal)
          (ewSpec (V c main_arg5) (V c main_arg2) (V c main_arg3) (V c main_v4)) := by
  show (cfg0.win 4).cut (grid0.coords t) ((dat0 (F := Ideal) V c).after 4 t) = _
  rw [after0_4]
  unfold out0_4
  rw [View.canon_unit_zero hz]
  simp only [View.ld_unit_zero (S := S8000x64) hz, View.ld_unit_zero (S := S64x64) hz,
    View.ld_unit_zero (S := S64x1) hz, View.ld_unit_zero (S := S1x1) hz]
  obtain ⟨e0, e1, -, -, -, -, -, -, e8, e9⟩ := idx_facts t
  funext y
  have hx := eq_ix2 (n0 := 8000) (n1 := 1) ((cfg0.win 4).xinj (grid0.coords t) y)
  refine (congrArg (k0_pay1 (iblk0 V c 0 t) (iblk0 V c 1 t) (iblk0 V c 2 t) (iblk0 V c 3 t)) hx).trans ?_
  refine (pay_apply (iblk0 V c 0 t) (iblk0 V c 1 t) (iblk0 V c 2 t) (iblk0 V c 3 t) _ _).trans ?_
  rw [square_read V c t, column_read V c t, bias_read V c t]
  show _ = ewSpec (V c main_arg5) (V c main_arg2) (V c main_arg3) (V c main_v4) (((cfg0.win 4).blk t).view.emb y)
  unfold ewSpec
  refine congrArg₂ (· + ·) (Finset.sum_congr rfl fun j _ => congrArg₂ (· * ·)
    (Finset.sum_congr rfl fun k _ => congrArg₂ (· * ·) ?_ rfl) ?_) rfl
  · refine rows_read V c t _ _ ?_ ?_
    · show win0_4.index t (0 : Fin 2) * 8000 + 1 * (y 0).val = win0_0.index t (0 : Fin 2) * 8000 + (y 0).val
      omega
    · show k.val = win0_0.index t (1 : Fin 2) * 64 + k.val
      omega
  · refine congrArg (V c main_arg3 : S64x1.Idx → EReal) (congrArg (ix2 j) (Fin.ext ?_))
    show (y 1).val = win0_4.index t (1 : Fin 2) * 1 + 1 * (y 1).val
    omega

end Flush

/-- An index of the result array is in point t's block exactly when each coordinate lies in the block's range
    on its axis: from the block's first coordinate, for the block's extent. -/
theorem mem_blk (t : Fin cfg0.N) (i : S1000000x1.Idx) :
    i ∈ ((cfg0.win 4).blk t).view.set
      ↔ ∀ a : Fin 2, win0_4.index t a * S8000x1.size a ≤ (i a).val
          ∧ (i a).val < win0_4.index t a * S8000x1.size a + S8000x1.size a := by
  show i ∈ ((View.whole main_v5).slice (win0_4.rect t)).set ↔ _
  rw [View.set_slice_whole, Rect.mem_set_unit]
  exact Iff.rfl

/-- Every row of the result is written back: row r lies in the block of point r / 8000, one of the 125 points
    (125 · 8000 rows in all), and every point writes its block back. -/
theorem cover (i : S1000000x1.Idx) :
    ∃ t : Fin cfg0.N, (cfg0.win 4).flush t = true ∧ i ∈ ((cfg0.win 4).blk t).view.set := by
  have hi0 : (i 0).val < 1000000 := (i 0).isLt
  have hi1 : (i 1).val < 1 := (i 1).isLt
  have hlt : (i 0).val / 8000 < cfg0.N := by
    show (i 0).val / 8000 < grid0.N
    rw [N_0]
    omega
  obtain ⟨t, ht⟩ : ∃ t : Fin cfg0.N, t.val = (i 0).val / 8000 := ⟨⟨_, hlt⟩, rfl⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 1 ≤ (i 1).val ∧ (i 1).val < win0_4.index t (1 : Fin 2) * 1 + 1
    omega

/-- The result array after the region: every entry is the edge-weight function of the four arrays as the region
    finds them, since each point writes back its block of that one function and the blocks cover the array. -/
theorem ew_array (V : (c : Dev nD) → (b : Ref sig .tc) → Buf (Elt Ideal) ((c : Thread nD τ).loc b)) (c : Dev nD) :
    (dat0 (F := Ideal) V c).arrAt 4 cfg0.N
      = ewSpec (V c main_arg5) (V c main_arg2) (V c main_arg3) (V c main_v4) :=
  (dat0 (F := Ideal) V c).arrAt_eq_of_cover 4
    (ewSpec (V c main_arg5) (V c main_arg2) (V c main_arg3) (V c main_v4))
    (fun t _ => flushed_eq V c t) cover

end Cert.KernelIdeal.EdgeWeight

end
-- ==== Proof.KernelValue.lean ====
import proofs.«138866_j64604898066610_2_alg».proof.Proof.KernelRun
import proofs.«138866_j64604898066610_2_alg».proof.Proof.HostChain
import proofs.«138866_j64604898066610_2_alg».proof.Proof.ScoreRows
import proofs.«138866_j64604898066610_2_alg».proof.Proof.EdgeWeight
import proofs.«138866_j64604898066610_2_alg».proof.Proof.RefSide

/-!
  The idealized kernel program's result, as a function of the argument arrays.

  The result array is the second region's output: entry b is the inner product of row b of the two arrays the
  region is entered with.  Those two arrays are the reference's gathered user rows and gathered item rows of the
  argument arrays, because what the host operations between the regions start from is: the argument arrays as
  launched; the two rows of the edge list as the first host operations cut them out; and, at the first region's
  output, the edge weights (feature row times F, times the weight column, plus the bias) — whose doubled vector is
  the reference's.
-/

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The buffer contents the first region is entered with, and leaves -/

theorem entry_arg2 (c : Dev nD) : V1 m ρ c main_arg2 = m ((c : Thread nD τ).loc main_arg2) := by
  show StableHlo.after hostOps0 (W0 m ρ c) (Proc.devRef .tc main_arg2) = _
  after_results <;> rfl
theorem entry_arg3 (c : Dev nD) : V1 m ρ c main_arg3 = m ((c : Thread nD τ).loc main_arg3) := by
  show StableHlo.after hostOps0 (W0 m ρ c) (Proc.devRef .tc main_arg3) = _
  after_results <;> rfl
theorem entry_arg5 (c : Dev nD) : V1 m ρ c main_arg5 = m ((c : Thread nD τ).loc main_arg5) := by
  show StableHlo.after hostOps0 (W0 m ρ c) (Proc.devRef .tc main_arg5) = _
  after_results <;> rfl
/-- The bias enters the first region as a one-by-one array. -/
theorem entry_bias (c : Dev nD) :
    V1 m ρ c main_v4 = shapeCast S1x1 (m ((c : Thread nD τ).loc main_arg4)) shapeCasts_S1_S1x1 := by
  show StableHlo.after hostOps0 (W0 m ρ c) (Proc.devRef .tc main_v4) = _
  after_results <;> rfl

theorem exit_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)
theorem exit_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem exit_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem exit_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
/-- The source row of the edge list, as the reference cuts it out. -/
theorem exit_src (c : Dev nD) : W2 m ρ c (Proc.devRef .tc main_v1)
    = Cert.ReferenceIdeal.Read.val_main_v1 (F := Ideal) (m ((c : Thread nD τ).loc main_arg6)) :=
  (W2_of_ne m ρ c main_v1 (by decide)).trans (by
    show StableHlo.after hostOps0 (W0 m ρ c) (Proc.devRef .tc main_v1) = _
    after_results <;> rfl)
/-- The destination row of the edge list, as the reference cuts it out. -/
theorem exit_dst (c : Dev nD) : W2 m ρ c (Proc.devRef .tc main_v3)
    = Cert.ReferenceIdeal.Read.val_main_v3 (F := Ideal) (m ((c : Thread nD τ).loc main_arg6)) :=
  (W2_of_ne m ρ c main_v3 (by decide)).trans (by
    show StableHlo.after hostOps0 (W0 m ρ c) (Proc.devRef .tc main_v3) = _
    after_results <;> rfl)

/-- The first region leaves the edge weights in its output array. -/
theorem exit_ew (c : Dev nD) : W2 m ρ c (Proc.devRef .tc main_v5)
    = Cert.KernelIdeal.EdgeWeight.ewSpec (m ((c : Thread nD τ).loc main_arg5)) (m ((c : Thread nD τ).loc main_arg2))
        (m ((c : Thread nD τ).loc main_arg3)) (shapeCast S1x1 (m ((c : Thread nD τ).loc main_arg4)) shapeCasts_S1_S1x1) :=
  (W2_arr m ρ c 4).trans ((Cert.KernelIdeal.EdgeWeight.ew_array (V1 m ρ) c).trans (by
    rw [entry_arg5, entry_arg2, entry_arg3, entry_bias]))

/-- Their doubled vector is the reference's. -/
theorem exit_ew_doubled (c : Dev nD) :
    concatenate S2000000 0 [⟨S1000000, shapeCast S1000000 (W2 m ρ c (Proc.devRef .tc main_v5)) shapeCasts_S1000000x1_S1000000⟩,
        ⟨S1000000, shapeCast S1000000 (W2 m ρ c (Proc.devRef .tc main_v5)) shapeCasts_S1000000x1_S1000000⟩] concatenates_S1000000_S1000000_S2000000_d0
      = Cert.ReferenceIdeal.Read.val_main_v10 (F := Ideal) (m ((c : Thread nD τ).loc main_arg2)) (m ((c : Thread nD τ).loc main_arg3))
          (m ((c : Thread nD τ).loc main_arg4)) (m ((c : Thread nD τ).loc main_arg5)) := by
  rw [exit_ew]
  exact Cert.ReferenceIdeal.RefSide.ew_doubled _ _ _ _ shapeCasts_S1_S1x1 shapeCasts_S1000000x1_S1000000
    concatenates_S1000000_S1000000_S2000000_d0

/-! ## The second region's two input arrays, and the result -/

/-- The result as a function of the argument arrays: the row sums of the product of the reference's gathered user
    rows and gathered item rows. -/
def resultOf (c : Dev nD) : S16384.Idx → EReal :=
  fun i => ∑ k : Fin 64,
    Cert.ReferenceIdeal.Read.val_main_v94 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (ix2 (i 0) k)
      * Cert.ReferenceIdeal.Read.val_main_v101 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg8)) (ix2 (i 0) k)

theorem entry_users (c : Dev nD) : V5 m ρ c main_v91
    = Cert.ReferenceIdeal.Read.val_main_v94 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  Cert.KernelIdeal.HostChain.user_rows (W2 m ρ c) _ _ _ _ _ _ _ _ (exit_arg0 m ρ c) (exit_arg1 m ρ c) (exit_arg7 m ρ c)
    (exit_src m ρ c) (exit_dst m ρ c) (exit_ew_doubled m ρ c)

theorem entry_items (c : Dev nD) : V5 m ρ c main_v98
    = Cert.ReferenceIdeal.Read.val_main_v101 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg8)) :=
  Cert.KernelIdeal.HostChain.item_rows (W2 m ρ c) _ _ _ _ _ _ _ _ (exit_arg0 m ρ c) (exit_arg1 m ρ c) (exit_arg8 m ρ c)
    (exit_src m ρ c) (exit_dst m ρ c) (exit_ew_doubled m ρ c)

/-- What the second region's write-backs leave in the result array. -/
theorem result_array (c : Dev nD) : (dat1 (V5 m ρ) c).arrAt 2 cfg1.N = resultOf m c :=
  (Cert.KernelIdeal.ScoreRows.score_array (V5 m ρ) c).trans (by
    rw [entry_users, entry_items]
    rfl)

/-- The run, with the result at that function of the argument arrays and the arguments as launched. -/
theorem run : θ_run defs (onTc (τ := τ) (main (F := Ideal))) ⟨m, fun _ => 0, ρ⟩ (fun r => ∀ c : Dev nD,
      r.2.mem ((c.tc : Thread nD τ).loc main_v99) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_array m ρ c), (h c).2⟩)
    (Cert.KernelIdeal.KernelRun.run_result (F := Ideal) m ρ)

end Cert.KernelIdeal.KernelValue

end
-- ==== Proof.lean ====
import proofs.«138866_j64604898066610_2_alg».proof.Defs
import proofs.«138866_j64604898066610_2_alg».proof.Proof.Gen.Kernel
import proofs.«138866_j64604898066610_2_alg».proof.Proof.Gen.Kernel.Frame
import proofs.«138866_j64604898066610_2_alg».proof.Proof.Gen.KernelIdeal
import proofs.«138866_j64604898066610_2_alg».proof.Proof.Gen.KernelIdeal.Frame
import proofs.«138866_j64604898066610_2_alg».proof.Proof.Gen.ReferenceIdeal
import proofs.«138866_j64604898066610_2_alg».proof.Proof.Gen.Pre_finite_inputs
import proofs.«138866_j64604898066610_2_alg».proof.Proof.RefRun
import proofs.«138866_j64604898066610_2_alg».proof.Proof.RefRead
import proofs.«138866_j64604898066610_2_alg».proof.Proof.RefSide
import proofs.«138866_j64604898066610_2_alg».proof.Proof.KernelValue
import Idealize.ShloMosaic.Adequacy
import Idealize.ShloMosaic.Init

/-!
  A graph-propagation scorer: a kernel program of two pipelined regions against its plain reference, equal
  over the extended reals.

  Both programs compute, for 16384 (user, item) pairs, the inner product of a propagated user embedding and a
  propagated item embedding.  The propagation — degree normalisation, three rounds of gather, scale by an edge
  coefficient and scatter-add, a weighted sum of the rounds — is the same sequence of host operations in both.
  They differ in two places.  The edge weight of row e, (features(e, ·) · F) · w + bias, is a pipelined region of
  125 blocks of 8000 rows in the kernel program and two host matrix products in the reference; and the final
  row sums of products are a second region of 4 blocks in the kernel program and a host multiply and sum in the
  reference.  At the ideal values a change of float format is the identity and each matrix product is the
  row-by-column sum, so the edge weights agree term by term (the same association of the two sums; no law that
  needs finite entries is used), the shared operations then act on equal operands, and the final sums are the same
  sum over the 64 columns.

  The frames of the two kernel programs are the generated ones; the reference's frame is its run with the result
  dropped; the idealized kernel program is the printed program's own text read at the ideal values, so there is
  nothing to preserve.
-/

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Run from memories that agree on the arguments, both idealized programs end with the same result: entry b is
    the sum over the 64 columns of the product of the gathered user row and the gathered item row of pair b. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KernelValue.resultOf m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v103_eq, Cert.ReferenceIdeal.RefSide.result_rows, e0, e1, e2, e3, e4, e5, e6, e7, e8]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
